-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S4x2048x1024 .f32) (main_arg1 : FVec F S3072x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S4x2048x1024 : Shape := ⟨3, ![4, 2048, 1024]⟩
abbrev S3072x1024 : Shape := ⟨2, ![3072, 1024]⟩
abbrev S8192x1024 : Shape := ⟨2, ![8192, 1024]⟩
abbrev S3x1024x1024 : Shape := ⟨3, ![3, 1024, 1024]⟩
abbrev S3x8192x1024 : Shape := ⟨3, ![3, 8192, 1024]⟩
abbrev S2048x1024 : Shape := ⟨2, ![2048, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S3x4x2048x1024 : Shape := ⟨4, ![3, 4, 2048, 1024]⟩
abbrev S1x4x2048x1024 : Shape := ⟨4, ![1, 4, 2048, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S8192x1024, .f32⟩
  | .hbm, ⟨3, _⟩ => ⟨S8192x1024, .bf16⟩
  | .hbm, ⟨4, _⟩ => ⟨S3072x1024, .bf16⟩
  | .hbm, ⟨5, _⟩ => ⟨S3x1024x1024, .bf16⟩
  | .hbm, ⟨6, _⟩ => ⟨S3x8192x1024, .bf16⟩
  | .hbm, ⟨7, _⟩ => ⟨S3x4x2048x1024, .bf16⟩
  | .hbm, ⟨8, _⟩ => ⟨S1x4x2048x1024, .bf16⟩
  | .hbm, ⟨9, _⟩ => ⟨S4x2048x1024, .bf16⟩
  | .hbm, ⟨10, _⟩ => ⟨S1x4x2048x1024, .bf16⟩
  | .hbm, ⟨11, _⟩ => ⟨S4x2048x1024, .bf16⟩
  | .hbm, ⟨12, _⟩ => ⟨S1x4x2048x1024, .bf16⟩
  | .hbm, ⟨13, _⟩ => ⟨S4x2048x1024, .bf16⟩
  | .hbm, ⟨14, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x1024x1024, .f32⟩
  | .local _ .vmem, ⟨13, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S3072x1024_S3x1024x1024 : S3072x1024.ShapeCasts S3x1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  packedbf16_S1x2048x1024_S1x2048x1024_0_0_0 : (Rect.unit (s := S1x2048x1024) ![0, 0, 0] S1x2048x1024.size inb_S1x2048x1024_S1x2048x1024_0_0_0).PackedRows (EltTy.packing .bf16)
  shapeCasts_S3x8192x1024_S3x4x2048x1024 : S3x8192x1024.ShapeCasts S3x4x2048x1024
  slices_S3x4x2048x1024_S1x4x2048x1024_0_0_0_0 : S3x4x2048x1024.Slices ![0, 0, 0, 0] S1x4x2048x1024
  shapeCasts_S1x4x2048x1024_S4x2048x1024 : S1x4x2048x1024.ShapeCasts S4x2048x1024
  slices_S3x4x2048x1024_S1x4x2048x1024_1_0_0_0 : S3x4x2048x1024.Slices ![1, 0, 0, 0] S1x4x2048x1024
  slices_S3x4x2048x1024_S1x4x2048x1024_2_0_0_0 : S3x4x2048x1024.Slices ![2, 0, 0, 0] S1x4x2048x1024
  reduces_S1024x2048_S1024 : S1024x2048.Reduces [1] S1024
  shapeCasts_S1024_S1024x1 : S1024.ShapeCasts S1024x1
  broadcasts_S1024x1_S1024x2048 : S1024x1.Broadcasts S1024x2048
  shapeCasts_S1024x1024_S1x1024x1024 : S1024x1024.ShapeCasts S1x1024x1024
  dot_S2048x1024_S1024x1024_S2048x1024_1_1_0_0_n_n_wf : DotDims.WF S2048x1024 S1024x1024 S2048x1024 [1] [1] [0] [0] [] []
  dot_S1024x1024_S2048x1024_S1024x2048_1_1_0_0_n_n_wf : DotDims.WF S1024x1024 S2048x1024 S1024x2048 [1] [1] [0] [0] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S3x1024x1024.size a
  hwx0_1 : ∀ i : grid0.Coords, EltTy.bits .bf16 = 32 ∨ (Rect.block (s := S3x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S3x8192x1024.size a
  hwx0_2 : ∀ i : grid0.Coords, EltTy.bits .bf16 = 32 ∨ (Rect.block (s := S3x8192x1024) S1x2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S4x2048x3072 : Shape := ⟨3, ![4, 2048, 3072]⟩
abbrev S4x2048x3x1024 : Shape := ⟨4, ![4, 2048, 3, 1024]⟩
abbrev S3x4x2048x1024 : Shape := ⟨4, ![3, 4, 2048, 1024]⟩
abbrev S1x4x2048x1024 : Shape := ⟨4, ![1, 4, 2048, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S4x2048x3072, .f32⟩
  | .hbm, ⟨3, _⟩ => ⟨S4x2048x3x1024, .f32⟩
  | .hbm, ⟨4, _⟩ => ⟨S3x4x2048x1024, .f32⟩
  | .hbm, ⟨5, _⟩ => ⟨S1x4x2048x1024, .f32⟩
  | .hbm, ⟨6, _⟩ => ⟨S4x2048x1024, .f32⟩
  | .hbm, ⟨7, _⟩ => ⟨S1x4x2048x1024, .f32⟩
  | .hbm, ⟨8, _⟩ => ⟨S4x2048x1024, .f32⟩
  | .hbm, ⟨9, _⟩ => ⟨S1x4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  shapeCasts_S4x2048x3072_S4x2048x3x1024 : S4x2048x3072.ShapeCasts S4x2048x3x1024
  transposes_S4x2048x3x1024_S3x4x2048x1024_2_0_1_3 : S4x2048x3x1024.Transposes [2, 0, 1, 3] S3x4x2048x1024
  slices_S3x4x2048x1024_S1x4x2048x1024_0_0_0_0 : S3x4x2048x1024.Slices ![0, 0, 0, 0] S1x4x2048x1024
  shapeCasts_S1x4x2048x1024_S4x2048x1024 : S1x4x2048x1024.ShapeCasts S4x2048x1024
  slices_S3x4x2048x1024_S1x4x2048x1024_1_0_0_0 : S3x4x2048x1024.Slices ![1, 0, 0, 0] S1x4x2048x1024
  slices_S3x4x2048x1024_S1x4x2048x1024_2_0_0_0 : S3x4x2048x1024.Slices ![2, 0, 0, 0] S1x4x2048x1024
  bcast_S_S4x2048x1024 : S_.BroadcastsInDim S4x2048x1024 (![] : Fin 0 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Single-head attention over a fused projection, as one function of the two argument arrays.

  From the activations x[b, n, k] and the fused weight W[e, k] (e = g·1024 + d, g ∈ {0, 1, 2} the query, key and
  value groups) the three projections are P_g[b, n, d] = ∑ k, x[b, n, k] · W[g·1024 + d, k].  A score row is
  s[b, n, m] = ∑ d, P_0[b, n, d] · P_1[b, m, d], scaled by c = 1/32; the weights of a row are its softmax
  w[m] = exp(s[m] − max s) / ∑ m', exp(s[m'] − max s), and the result is ∑ m, w[m] · P_2[b, m, d].

  The scale can be applied to the finished score, (∑ d, P_0·P_1)·c, or to the query before the sum,
  ∑ d, (P_0·c)·P_1.  On the extended reals the two agree because c is a nonnegative real: multiplication by such
  a number distributes over every sum, infinite terms included.
-/
import Idealize.ShloMosaic.PureOps.Ideal
import Idealize.ShloMosaic.Lib.ValueIdx

noncomputable section

namespace Cert.AttnSpec

open Idealize.ShloMosaic Idealize.ShloMosaic.ValueIdx
open scoped BigOperators

/-- The activations, the fused weight and the result as index functions. -/
abbrev Act := (⟨3, ![4, 2048, 1024]⟩ : Shape).Idx → EReal
abbrev Wgt := (⟨2, ![3072, 1024]⟩ : Shape).Idx → EReal

/-- Row `g·1024 + d` of the fused weight: feature `d` of group `g`. -/
def wrow (g : Fin 3) (d : Fin 1024) : Fin 3072 := ⟨g.val * 1024 + d.val, by have := g.isLt; have := d.isLt; omega⟩

/-- The projection of group `g`: `∑ k, x[b, n, k] · W[g·1024 + d, k]`. -/
def proj (x : Act) (W : Wgt) (g : Fin 3) (b : Fin 4) (n : Fin 2048) (d : Fin 1024) : EReal :=
  ∑ k : Fin 1024, x (ix3 b n k) * W (ix2 (wrow g d) k)

/-- The scale 2⁻⁵ as the f32 pattern both programs spell. -/
def scale : EReal := Ideal.ofBits .f32 0x3D000000#32

/-- The pattern of −∞ both programs start their row maximum from. -/
def ninf : EReal := Ideal.ofBits .f32 0xFF800000#32

/-- A score with the scale applied to the finished sum. -/
def scoreAfter (x : Act) (W : Wgt) (b : Fin 4) (n m : Fin 2048) : EReal :=
  (∑ d : Fin 1024, proj x W 0 b n d * proj x W 1 b m d) * scale

/-- A score with the scale applied to the query before the sum. -/
def scoreBefore (x : Act) (W : Wgt) (b : Fin 4) (n m : Fin 2048) : EReal :=
  ∑ d : Fin 1024, (proj x W 0 b n d * scale) * proj x W 1 b m d

/-- The maximum of a score row, folded from −∞. -/
def rowmax (s : Fin 2048 → EReal) : EReal := (Finset.univ : Finset (Fin 2048)).fold max ninf s

/-- The softmax weight of position `m` in a score row. -/
def weight (s : Fin 2048 → EReal) (m : Fin 2048) : EReal :=
  Ideal.div (Ideal.exp (s m - rowmax s)) (∑ m' : Fin 2048, Ideal.exp (s m' - rowmax s))

/-- One entry of the attention result from score rows `sc` and values `v`. -/
def attendAt (sc : Fin 4 → Fin 2048 → Fin 2048 → EReal) (v : Fin 4 → Fin 2048 → Fin 1024 → EReal)
    (b : Fin 4) (n : Fin 2048) (d : Fin 1024) : EReal :=
  ∑ m : Fin 2048, weight (sc b n) m * v b m d

/-- The attention result as an array. -/
def attend (sc : Fin 4 → Fin 2048 → Fin 2048 → EReal) (v : Fin 4 → Fin 2048 → Fin 1024 → EReal) : Act :=
  fun i => attendAt sc v (i 0) (i 1) (i 2)

/-- The whole function with the scale after the sum, and with the scale before it. -/
def resultAfter (x : Act) (W : Wgt) : Act := attend (scoreAfter x W) (proj x W 2)
def resultBefore (x : Act) (W : Wgt) : Act := attend (scoreBefore x W) (proj x W 2)

/-- The scale's pattern denotes the real 1/32. -/
theorem scale_eq : scale = ((1 / 32 : ℝ) : EReal) := by
  unfold scale
  simp [Ideal.ofBits, Ideal.ieee, -EReal.coe_mul]; norm_num

theorem scale_nonneg : 0 ≤ scale := by
  rw [scale_eq]; exact EReal.coe_nonneg.mpr (by norm_num)

theorem scale_ne_top : scale ≠ ⊤ := by
  rw [scale_eq]; exact EReal.coe_ne_top _

/-- The starting pattern of the maximum is the bottom of the extended reals. -/
theorem ninf_eq_bot : ninf = (⊥ : EReal) := by
  unfold ninf
  simp [Ideal.ofBits, Ideal.ieee]

/-- Multiplication by the scale distributes over a finite sum of extended reals. -/
theorem sum_mul_scale {ι : Type} (s : Finset ι) (f : ι → EReal) : (∑ i ∈ s, f i) * scale = ∑ i ∈ s, f i * scale := by
  classical
  induction s using Finset.induction_on with
  | empty => simp
  | insert a s ha ih =>
    rw [Finset.sum_insert ha, Finset.sum_insert ha, EReal.right_distrib_of_nonneg_of_ne_top scale_nonneg scale_ne_top, ih]

/-- The two placements of the scale give one score. -/
theorem scoreBefore_eq_scoreAfter (x : Act) (W : Wgt) : scoreBefore x W = scoreAfter x W := by
  funext b n m
  unfold scoreBefore scoreAfter
  rw [sum_mul_scale]
  exact Finset.sum_congr rfl fun d _ => mul_right_comm _ _ _

theorem resultBefore_eq_resultAfter (x : Act) (W : Wgt) : resultBefore x W = resultAfter x W := by
  unfold resultBefore resultAfter
  rw [scoreBefore_eq_scoreAfter]

/-- The maximum folded from −∞ is unchanged by one more `max` with −∞ (the reference takes that extra step). -/
theorem max_ninf_rowmax (s : Fin 2048 → EReal) : max ninf (rowmax s) = rowmax s := by
  rw [ninf_eq_bot]; exact max_bot_left _

end Cert.AttnSpec

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.LibMatmulRows.lean ====
/-
  A matrix product that contracts the SECOND axis of both operands, into a zero accumulator, read at an index of the
  result: entry (r, c) of an M×K block times an N×K block is the sum over the contracted coordinate k of
  left (r, k) times right (c, k) — the product of the left block with the transpose of the right one, as a score
  matrix q·kᵀ or a projection x·Wᵀ is written.  Stated for any dimension numbers that contract axis 1 with axis 1 and
  have no batch axes, at the exact (extended-real) instance, where the product carries no rounding.  Generic in M, K, N.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by an N×K block, contracting the second axis of each, accumulated into
    zeros, is `∑ k, left (r, k) * right (c, k)`. -/
theorem matmul_rows_zero_apply {M K N : Nat} {φ₁ φ₂ : FTy}
    (lc : List (Fin 2)) (rc : List (Fin 2)) (ln : List (Fin 2)) (rn : List (Fin 2)) (lb rb : List (Fin 2))
    (h1 : lc = [1]) (h2 : rc = [1]) (h3 : ln = [0]) (h4 : rn = [0]) (h5 : lb = []) (h6 : rb = [])
    (wf : DotDims.WF ⟨2, ![M, K]⟩ ⟨2, ![N, K]⟩ ⟨2, ![M, N]⟩ lc rc ln rn lb rb)
    (prec : Option ContractPrecision)
    (lhs : FVec Ideal ⟨2, ![M, K]⟩ φ₁) (rhs : FVec Ideal ⟨2, ![N, K]⟩ φ₂) (j : (⟨2, ![M, N]⟩ : Shape).Idx) :
    FloatOps.matmul (⟨lc, rc, ln, rn, lb, rb, wf⟩ : DotDims ⟨2, ![M, K]⟩ ⟨2, ![N, K]⟩ ⟨2, ![M, N]⟩) prec lhs rhs
        (constant ⟨2, ![M, N]⟩ .f32 0x00000000#32) j
      = ∑ k : Fin K, lhs (ix2 (j 0) k) * rhs (ix2 (j 1) k) := by
  subst h1 h2 h3 h4 h5 h6
  set d : DotDims ⟨2, ![M, K]⟩ ⟨2, ![N, K]⟩ ⟨2, ![M, N]⟩ := ⟨[1], [1], [0], [0], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 (j 1) k := funext fun a => Fin.ext (by
    match a with
    | ⟨0, _⟩ =>
      show (d.rhsIdx j _ 0).val = (j 1).val
      unfold DotDims.rhsIdx
      rw [dif_neg (show ¬(0 : Fin 2) ∈ d.rhsBatch by simp [hd]), dif_pos (show (0 : Fin 2) ∈ d.rhsNonContracting by simp [hd])]
      rfl
    | ⟨1, _⟩ => exact (d.rhsIdx_val_of_single (cr := 1) rfl j _).trans hk)
  rw [el, er]
  rfl

end Idealize.ShloMosaic.MatmulRead

end
-- ==== Proof.LibMinRead.lean ====
/-
  Minimum reductions at the exact (extended-real) instance, read at an index by their lower bounds, and the index
  lemmas that go with them.  A minimum-reduction over one axis is a fold of `min` from the accumulator's value over that
  axis's coordinates; from the f32 pattern of +∞ (the top of the extended reals) the numbers below the fold are exactly
  the numbers below every folded entry, which is the form in which minima over differently cut index sets are compared.
  Also: the index a single-axis reduction of an `[m, n]` block reads (row or column put back), and a vector `[a]` cast
  to a column `[a, 1]`.  Generic in the extents.
-/
import Idealize.ShloMosaic.Lib.ValueIdx
import Idealize.ShloMosaic.Lib.Pipeline.Value
import Idealize.ShloMosaic.PureOps.Ideal.Laws

noncomputable section

namespace Idealize.ShloMosaic.MinRead

open Idealize.ShloMosaic Idealize.ShloMosaic.ValueIdx
open scoped BigOperators

/-- The f32 pattern of +∞ is the top of the extended reals. -/
theorem pinf_eq_top : Ideal.ofBits .f32 0x7F800000#32 = (⊤ : EReal) := by
  simp [Ideal.ofBits, Ideal.ieee]

/-- A minimum-reduction over ONE axis, at the exact instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Below a fold of `min` over every coordinate from +∞: below every entry. -/
theorem le_fold_min_top {ι : Type} [Fintype ι] (f : ι → EReal) (z : EReal) :
    z ≤ (Finset.univ : Finset ι).fold min (Ideal.ofBits .f32 0x7F800000#32) f ↔ ∀ i, z ≤ f i := by
  rw [Finset.le_fold_min, pinf_eq_top]
  exact ⟨fun h i => h.2 i (Finset.mem_univ i), fun h => ⟨le_top, fun i _ => h i⟩⟩

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A reduced index `r` of an `[m, n]` block summed along its rows, with the column `k` put back, is `(r, k)`. -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A reduced index `q` of an `[m, n]` block summed down its columns, with the row `k` put back, is `(k, q)`. -/
theorem lift0_ix2 {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

end Idealize.ShloMosaic.MinRead

end
-- ==== Proof.BodyValue.lean ====
/-
  The two kernel bodies read at an index.

  The projection kernel stores, at (0, r, d), the row-by-row product ∑ k, x[r, k] · w[0, d, k] of its activation block
  with one group of the fused weight.  The attention kernel stores, at (0, r, d), the softmax-weighted sum of the value
  rows: with the score row s[m] = (∑ e, q[0, r, e] · k[0, m, e]) · c, the entry is
  ∑ m, (exp (s[m] − max s) / ∑ m', exp (s[m'] − max s)) · v[0, m, d].
-/
import proofs.«162608_j83743272337759_2_alg».proof.Proof.Gen.KernelIdeal.Skeleton
import proofs.«162608_j83743272337759_2_alg».proof.Proof.Spec
import proofs.«162608_j83743272337759_2_alg».proof.Proof.LibMatmul
import proofs.«162608_j83743272337759_2_alg».proof.Proof.LibMatmulRows
import proofs.«162608_j83743272337759_2_alg».proof.Proof.LibMinRead
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Idealize.ShloMosaic.MatmulRead
open scoped BigOperators

/-! ## The projection kernel's body -/

/-- The projection kernel stores, at (0, r, d), the product of row r of the activation block with row d of the weight group. -/
theorem proj_body (x0 : Vec Ideal S2048x1024 .bf16) (x1 : Vec Ideal S1x1024x1024 .bf16) (r : Fin 2048) (d : Fin 1024) :
    Gen.k0_pay1 (F := Ideal) x0 x1 (ix3 (0 : Fin 1) r d) = ∑ k : Fin 1024, x0 (ix2 r k) * x1 (ix3 (0 : Fin 1) d k) := by
  unfold Gen.k0_pay1
  refine (shapeCast_ab_1ab_apply _ _ (0 : Fin 1) r d).trans ?_
  refine (truncf_apply (φ := .f32) (ψ := .bf16) _ _ _).trans ?_
  refine (matmul_rows_zero_apply _ _ _ _ _ _ rfl rfl rfl rfl rfl rfl _ none _ _ (ix2 r d)).trans ?_
  refine Finset.sum_congr rfl fun k _ => ?_
  exact congrArg₂ (· * ·) (congrFun (shapeCast_self x0 _) (ix2 r k)) (shapeCast_1ab_ab_apply x1 _ d k)

/-! ## Row reductions of a 1024 × 2048 block, and a vector of row values put back on every column -/

/-- The maximum-reduction of a block along its rows, started from the pattern of −∞, is at row r the maximum of that row
    folded from −∞. -/
theorem rowmax_read (s : FVec Ideal S1024x2048 .f32) (h : S1024x2048.Reduces [1] S1024) (hφ : FKind.Formats .f32)
    (hacc : (0xFF800000#32 : BitVec FTy.f32.bits) = FKind.maximumf.neutral .f32 hφ) (r : Fin 1024) :
    multiReduction (F := Ideal) .maximumf [1] S1024 s 0xFF800000#32 h hφ hacc (ix1 r)
      = Cert.AttnSpec.rowmax fun m => s (ix2 r m) := by
  refine (Ideal.multiReduction_maximumf_single s _ h hφ hacc (ix1 r)).trans ?_
  show (Finset.univ : Finset (Fin 2048)).fold max (Ideal.ofBits .f32 0xFF800000#32) (fun m : Fin 2048 => s (h.lift (ix1 r) m))
      = (Finset.univ : Finset (Fin 2048)).fold max (Ideal.ofBits .f32 0xFF800000#32) (fun m => s (ix2 r m))
  exact Finset.fold_congr fun m _ => congrArg s (MinRead.lift1_ix2 h r m)

/-- The sum-reduction of a block along its rows is at row r the sum of that row. -/
theorem rowsum_read (s : FVec Ideal S1024x2048 .f32) (h : S1024x2048.Reduces [1] S1024) (hφ : FKind.Formats .f32)
    (hacc : (0x00000000#32 : BitVec FTy.f32.bits) = FKind.add.neutral .f32 hφ) (r : Fin 1024) :
    multiReduction (F := Ideal) .add [1] S1024 s 0x00000000#32 h hφ hacc (ix1 r) = ∑ m : Fin 2048, s (ix2 r m) := by
  refine (Ideal.multiReduction_add_single s _ h hφ hacc (ix1 r)).trans ?_
  show ∑ m : Fin 2048, s (h.lift (ix1 r) m) = ∑ m : Fin 2048, s (ix2 r m)
  exact Finset.sum_congr rfl fun m _ => congrArg s (MinRead.lift1_ix2 h r m)

/-- A vector of row values cast to a column and broadcast along the rows reads, at (r, m), the value of row r. -/
theorem col_back (w : FVec Ideal S1024 .f32) (hc : S1024.ShapeCasts S1024x1) (hb : S1024x1.Broadcasts S1024x2048)
    (r : Fin 1024) (m : Fin 2048) :
    broadcastTo S1024x2048 (shapeCast S1024x1 w hc) hb (ix2 r m) = w (ix1 r) :=
  (MatmulRead.broadcastTo_a1_ab_apply _ hb r m).trans (MinRead.shapeCast_a_a1_apply w hc r (0 : Fin 1))

/-- The row maxima put back on every column. -/
theorem maxcols_read (s : FVec Ideal S1024x2048 .f32) (h : S1024x2048.Reduces [1] S1024) (hφ : FKind.Formats .f32)
    (hacc : (0xFF800000#32 : BitVec FTy.f32.bits) = FKind.maximumf.neutral .f32 hφ)
    (hc : S1024.ShapeCasts S1024x1) (hb : S1024x1.Broadcasts S1024x2048) (r : Fin 1024) (m : Fin 2048) :
    broadcastTo S1024x2048 (shapeCast S1024x1 (multiReduction (F := Ideal) .maximumf [1] S1024 s 0xFF800000#32 h hφ hacc) hc) hb (ix2 r m)
      = Cert.AttnSpec.rowmax fun m' => s (ix2 r m') :=
  (col_back _ hc hb r m).trans (rowmax_read s h hφ hacc r)

/-- The row sums put back on every column. -/
theorem sumcols_read (s : FVec Ideal S1024x2048 .f32) (h : S1024x2048.Reduces [1] S1024) (hφ : FKind.Formats .f32)
    (hacc : (0x00000000#32 : BitVec FTy.f32.bits) = FKind.add.neutral .f32 hφ)
    (hc : S1024.ShapeCasts S1024x1) (hb : S1024x1.Broadcasts S1024x2048) (r : Fin 1024) (m : Fin 2048) :
    broadcastTo S1024x2048 (shapeCast S1024x1 (multiReduction (F := Ideal) .add [1] S1024 s 0x00000000#32 h hφ hacc) hc) hb (ix2 r m)
      = ∑ m' : Fin 2048, s (ix2 r m') :=
  (col_back _ hc hb r m).trans (rowsum_read s h hφ hacc r)

/-- The softmax weights of a score block from its parts: if the block mx holds on every column of row r the maximum of
    the score row, and the block sm holds at (r, m) the sum over the row of the exponentials of the shifted scores, then
    the quotient of the exponential by sm is at (r, m) the softmax weight of position m in the score row. -/
theorem weight_of_reads (s mx sm : FVec Ideal S1024x2048 .f32) (r : Fin 1024) (m : Fin 2048)
    (hmx : ∀ m' : Fin 2048, mx (ix2 r m') = Cert.AttnSpec.rowmax fun m'' => s (ix2 r m''))
    (hsm : sm (ix2 r m) = ∑ m' : Fin 2048, exp (subf s mx) (ix2 r m')) :
    divf (exp (subf s mx)) sm (ix2 r m) = Cert.AttnSpec.weight (fun m' => s (ix2 r m')) m := by
  have hexp : ∀ m' : Fin 2048, exp (subf s mx) (ix2 r m')
      = Ideal.exp (s (ix2 r m') - Cert.AttnSpec.rowmax fun m'' => s (ix2 r m'')) :=
    fun m' => congrArg (fun z => Ideal.exp (s (ix2 r m') - z)) (hmx m')
  exact congrArg₂ Ideal.div (hexp m) (hsm.trans (Finset.sum_congr rfl fun m' _ => hexp m'))

/-! ## The attention kernel's body -/

/-- The scaled score block: entry (r, m) is the product of query row r with key row m, times the scale. -/
theorem score_read (q : FVec Ideal S1x1024x1024 .bf16) (k : FVec Ideal S1x2048x1024 .bf16)
    (h1 : S1x1024x1024.ShapeCasts S1024x1024) (h2 : S1x2048x1024.ShapeCasts S2048x1024)
    (wf : DotDims.WF S1024x1024 S2048x1024 S1024x2048 [1] [1] [0] [0] [] []) (r : Fin 1024) (m : Fin 2048) :
    mulf (matmul (F := Ideal) ⟨[1], [1], [0], [0], [], [], wf⟩ none (shapeCast S1024x1024 q h1) (shapeCast S2048x1024 k h2)
          (constant S1024x2048 .f32 0x00000000#32))
        (broadcast S1024x2048 (Scalar.ofBits (F := Ideal) .f32 0x3D000000#32)) (ix2 r m)
      = (∑ e : Fin 1024, q (ix3 (0 : Fin 1) r e) * k (ix3 (0 : Fin 1) m e)) * Cert.AttnSpec.scale := by
  refine (mulf_apply _ _ _).trans ?_
  refine congrArg₂ (· * ·) ?_ rfl
  refine (matmul_rows_zero_apply _ _ _ _ _ _ rfl rfl rfl rfl rfl rfl wf none _ _ (ix2 r m)).trans ?_
  exact Finset.sum_congr rfl fun e _ => congrArg₂ (· * ·) (shapeCast_1ab_ab_apply q h1 r e) (shapeCast_1ab_ab_apply k h2 m e)

/-- The attention kernel stores, at (0, r, d), the sum over the key positions of the softmax weight of the scaled score
    row times the value row's entry d. -/
theorem attn_body (q : Vec Ideal S1x1024x1024 .bf16) (k v : Vec Ideal S1x2048x1024 .bf16) (r d : Fin 1024) :
    Gen.k1_pay1 (F := Ideal) q k v (ix3 (0 : Fin 1) r d)
      = ∑ m : Fin 2048, Cert.AttnSpec.weight (fun m' => (∑ e : Fin 1024, q (ix3 (0 : Fin 1) r e) * k (ix3 (0 : Fin 1) m' e)) * Cert.AttnSpec.scale) m
          * v (ix3 (0 : Fin 1) m d) := by
  unfold Gen.k1_pay1
  refine (shapeCast_ab_1ab_apply _ _ (0 : Fin 1) r d).trans ?_
  refine (MatmulRead.matmul_zero_apply _ _ _ _ _ _ rfl rfl rfl rfl rfl rfl _ none _ _ (ix2 r d)).trans ?_
  refine Finset.sum_congr rfl fun m _ => ?_
  refine congrArg₂ (· * ·) ?_ (shapeCast_1ab_ab_apply v _ m d)
  refine (truncf_apply (φ := .f32) (ψ := .bf16) _ _ _).trans ?_
  refine (weight_of_reads _ _ _ r m ?_ ?_).trans ?_
  · exact fun m' => maxcols_read _ _ _ _ _ _ r m'
  · exact sumcols_read _ _ _ _ _ _ r m
  · exact congrArg (fun f => Cert.AttnSpec.weight f m) (funext fun m' => score_read q k _ _ _ r m')

end Cert.KernelIdeal.BodyValue

end
-- ==== Proof.KernelRun.lean ====
/-
  The idealized kernel's run with its result array named.

  The program is two pipelined regions among stretches of host operations.  Its buffer contents at the four
  segment boundaries are a fold from the launch memory; every weakly fair execution terminates in a state whose
  unscoped buffers hold the last boundary's contents.  Read at the result buffer, that is what the second region's
  write-backs leave in its output array; read at the two arguments, the launch contents.
-/
import proofs.«162608_j83743272337759_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output array: at the last boundary it holds what that region's
    write-backs leave. -/
theorem W4_result (c : Dev nD) :
    W4 m ρ c (Proc.devRef .tc main_v12) = (dat1 (V3 m ρ) c).arrAt 3 cfg1.N :=
  W4_arr m ρ c 3

set_option backward.isDefEq.respectTransparency.types false in
/-- Every weakly fair execution terminates, nothing faulting, with the result buffer at the second region's final
    output array and the two arguments as launched. -/
theorem run_named : θ_run defs (onTc (τ := τ) (main (F := F))) ⟨m, fun _ => 0, ρ⟩ (fun r => ∀ c : Dev nD,
      r.2.mem ((c.tc : Thread nD τ).loc main_v12) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v12 (by decide))).trans (W4_result m ρ c),
       (h c _ (mem_uc main_arg0 (by decide))).trans (W4_main_arg0 m ρ c),
       (h c _ (mem_uc main_arg1 (by decide))).trans (W4_main_arg1 m ρ c)⟩)

end Cert.KernelIdeal.RunValue

end
-- ==== Proof.Region0.lean ====
/-
  The first region: the fused projection, tile by tile.

  Its grid is 4 row tiles × 3 groups.  At a point the body multiplies a 2048×1024 tile of the flattened activations by
  the 1024×1024 weight of one group (contracting the feature axis of both) and stores the 2048×1024 product as the
  tile of the output [3, 8192, 1024] at (group, row tile).  The tiles cover the output, so after the region the output
  is the grouped projection of the two input arrays at every index.
-/
import proofs.«162608_j83743272337759_2_alg».proof.Proof.Gen.KernelIdeal.Frame
import proofs.«162608_j83743272337759_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the body's stored value is at an entry: the dot product of row `r` of the activation tile with row `d` of
    the weight tile.  The region's value is stated under this reading of the body, which is proved separately. -/
def BodyReads : Prop :=
  ∀ (x0 : Vec Ideal S2048x1024 .bf16) (x1 : Vec Ideal S1x1024x1024 .bf16) (r : Fin 2048) (d : Fin 1024),
    Gen.k0_pay1 (F := Ideal) x0 x1 (ix3 (0 : Fin 1) r d) = ∑ k : Fin 1024, x0 (ix2 r k) * x1 (ix3 (0 : Fin 1) d k)

/-- The grouped projection of a flattened activation array `a[M, k]` by a grouped weight `w[g, d, k]`:
    entry (g, M, d) is `∑ k, a[M, k] · w[g, d, k]`. -/
def G0 (a : S8192x1024.Idx → EReal) (w : S3x1024x1024.Idx → EReal) : S3x8192x1024.Idx → EReal :=
  fun i => ∑ k : Fin 1024, a (ix2 (i 1) k) * w (ix3 (i 0) (i 2) k)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 12 grid points: the activation tile follows the output's row tile, the weight tile
    its group, and every other block coordinate is 0. -/
theorem idx_facts0 : ∀ t : Fin cfg0.N, win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 2 ∧ win0_2.index t (1 : Fin 3) ≤ 3 :=
  (by decide +kernel : ∀ t : Fin grid0.N, _)

/-- At grid point `t` the stored tile's entry (0, r, d) is the grouped projection at the array index under it: the
    activation tile is rows `2048·i …` of `a` (i the point's row-tile coordinate) and the weight tile is group `g` of `w`. -/
theorem block_eq (hbody : BodyReads) (a : S8192x1024.Idx → EReal) (w : S3x1024x1024.Idx → EReal) (t : Fin cfg0.N) (r : Fin 2048) (d : Fin 1024)
    (x0 : Vec Ideal S2048x1024 .bf16) (x1 : Vec Ideal S1x1024x1024 .bf16)
    (h0 : ∀ y : S2048x1024.Idx, x0 y = a (((cfg0.win 0).blk t).view.emb y))
    (h1 : ∀ y : S1x1024x1024.Idx, x1 y = w (((cfg0.win 1).blk t).view.emb y)) :
    k0_pay1 (F := Ideal) x0 x1 (ix3 (0 : Fin 1) r d) = G0 a w (((cfg0.win 2).blk t).view.emb (ix3 (0 : Fin 1) r d)) := by
  obtain ⟨e0, e1, e2, e3, e4, e5, e6, e7⟩ := idx_facts0 t
  refine (hbody _ _ r d).trans ?_
  unfold G0
  refine Finset.sum_congr rfl fun k _ => ?_
  rw [h0, h1]
  have g0 : ((cfg0.win 0).blk t).view.emb (ix2 r k) = ix2 ((((cfg0.win 2).blk t).view.emb (ix3 (0 : Fin 1) r d)) 1) k := by
    funext a; apply Fin.ext
    match a with
    | ⟨0, _⟩ => show win0_0.index t (0 : Fin 2) * 2048 + 1 * r.val = win0_2.index t (1 : Fin 3) * 2048 + 1 * r.val; omega
    | ⟨1, _⟩ => show win0_0.index t (1 : Fin 2) * 1024 + 1 * k.val = k.val; omega
  have g1 : ((cfg0.win 1).blk t).view.emb (ix3 (0 : Fin 1) d k) = ix3 ((((cfg0.win 2).blk t).view.emb (ix3 (0 : Fin 1) r d)) 0) ((((cfg0.win 2).blk t).view.emb (ix3 (0 : Fin 1) r d)) 2) k := by
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 1024 + 1 * d.val = win0_2.index t (2 : Fin 3) * 1024 + 1 * d.val; omega
    | ⟨2, _⟩ => show win0_1.index t (2 : Fin 3) * 1024 + 1 * k.val = k.val; omega
  rw [g0, g1]
  rfl

/-- What point `t` writes back is block `t` of the grouped projection of the arrays as the region finds them. -/
theorem flushed_eq (hbody : BodyReads) (c : Dev nD) (t : Fin cfg0.N) :
    (dat0 V c).flushed 2 t = ((cfg0.win 2).blk t).view.read (Elt Ideal) (G0 (V c main_v1) (V c main_v3)) := by
  show (cfg0.win 2).cut (grid0.coords t) ((dat0 V c).after 2 t) = _
  rw [after0_2]
  unfold out0_2
  rw [View.canon_unit_zero hz3]
  simp only [View.ld_unit_zero (S := S2048x1024) hz2, View.ld_unit_zero (S := S1x1024x1024) hz3]
  funext y
  obtain ⟨u, r, d, rfl⟩ : ∃ (u : Fin 1) (r : Fin 2048) (d : Fin 1024), y = ix3 u r d := ⟨y 0, y 1, y 2, eq_ix3 y⟩
  have hu : u = 0 := Subsingleton.elim _ _
  subst hu
  exact block_eq hbody (V c main_v1) (V c main_v3) t r d (iblk0 V c 0 t) (iblk0 V c 1 t) (fun _ => rfl) (fun _ => rfl)

/-- An index is in point `t`'s output block iff each coordinate is in the block's range on its axis. -/
theorem mem_blk (t : Fin cfg0.N) (i : S3x8192x1024.Idx) :
    i ∈ ((cfg0.win 2).blk t).view.set ↔ ∀ a : Fin 3, win0_2.index t a * S1x2048x1024.size a ≤ (i a).val ∧ (i a).val < win0_2.index t a * S1x2048x1024.size a + S1x2048x1024.size a := by
  show i ∈ ((View.whole main_v4).slice (win0_2.rect t)).set ↔ _
  rw [View.set_slice_whole, Rect.mem_set_unit]
  exact Iff.rfl

/-- Every (group, row tile) pair is some grid point's output block. -/
theorem idx_onto : ∀ (g : Fin 3) (q : Fin 4), ∃ t : Fin cfg0.N, win0_2.index t = ![g.val, q.val, 0] :=
  (by decide +kernel : ∀ (g : Fin 3) (q : Fin 4), ∃ t : Fin grid0.N, win0_2.index t = ![g.val, q.val, 0])

/-- Every index of the output array is in the block of the point at (its group, its row / 2048). -/
theorem cover (i : S3x8192x1024.Idx) : ∃ t : Fin cfg0.N, (cfg0.win 2).flush t = true ∧ i ∈ ((cfg0.win 2).blk t).view.set := by
  have hi0 : (i 0).val < 3 := (i 0).isLt
  have hi1 : (i 1).val < 8192 := (i 1).isLt
  have hi2 : (i 2).val < 1024 := (i 2).isLt
  obtain ⟨t, ht⟩ := idx_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1024 ≤ (i 2).val ∧ (i 2).val < win0_2.index t (2 : Fin 3) * 1024 + 1024; omega

/-- The output blocks tile the array, so after the region it holds the grouped projection everywhere. -/
theorem final (hbody : BodyReads) (c : Dev nD) : (dat0 V c).arrAt 2 cfg0.N = G0 (V c main_v1) (V c main_v3) :=
  (dat0 V c).arrAt_eq_of_cover 2 (G0 (V c main_v1) (V c main_v3)) (fun t _ => flushed_eq V hbody c t) cover

end Cert.KernelIdeal.Region0
end
-- ==== Proof.Region1.lean ====
/-
  The second region: attention, one query tile at a time.

  Its grid is 4 batches × 2 query tiles.  At a point the body takes a 1024×1024 tile of the queries and the whole
  2048×1024 keys and values of the batch, forms the 1024×2048 scores, scales them, takes each row's softmax and
  multiplies by the values; the 1024×1024 product is the tile of the output at (batch, query tile).  The tiles cover
  the output, so after the region the output is the attention of the three input arrays at every index.
-/
import proofs.«162608_j83743272337759_2_alg».proof.Proof.Gen.KernelIdeal.Frame
import proofs.«162608_j83743272337759_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the body's stored value is at an entry: the softmax-weighted sum of the value rows, the scores being the scaled
    dot products of query row `r` with every key row.  The region's value is stated under this reading of the body,
    which is proved separately. -/
def BodyReads : Prop :=
  ∀ (q : Vec Ideal S1x1024x1024 .bf16) (k v : Vec Ideal S1x2048x1024 .bf16) (r d : Fin 1024),
    Gen.k1_pay1 (F := Ideal) q k v (ix3 (0 : Fin 1) r d)
      = ∑ m : Fin 2048, Cert.AttnSpec.weight (fun m' => (∑ e : Fin 1024, q (ix3 (0 : Fin 1) r e) * k (ix3 (0 : Fin 1) m' e)) * Cert.AttnSpec.scale) m * v (ix3 (0 : Fin 1) m d)

/-- Attention of three [4, 2048, 1024] arrays — queries, keys, values — batch by batch: entry (b, n, d) is
    `∑ m, softmax_m((∑ e, q[b, n, e] · k[b, m, e]) · c) · v[b, m, d]`. -/
def G1 (q k v : S4x2048x1024.Idx → EReal) : S4x2048x1024.Idx → EReal :=
  fun i => ∑ m : Fin 2048, Cert.AttnSpec.weight (fun m' => (∑ e : Fin 1024, q (ix3 (i 0) (i 1) e) * k (ix3 (i 0) m' e)) * Cert.AttnSpec.scale) m * v (ix3 (i 0) m (i 2))

theorem hz3 : (![0, 0, 0] : Fin 3 → Nat) = fun _ => 0 := funext fun a => by fin_cases a <;> rfl

/-- The printed index maps over the 8 grid points: the query tile follows the output's (batch, tile), the key and value
    blocks its batch, and every other block coordinate is 0. -/
theorem idx_facts1 : ∀ t : Fin cfg1.N, win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (2 : Fin 3) = 0
    ∧ win1_3.index t (0 : Fin 3) ≤ 3 ∧ win1_3.index t (1 : Fin 3) ≤ 1 :=
  (by decide +kernel : ∀ t : Fin grid1.N, _)

/-- At grid point `t` = (batch, query tile) the stored tile's entry (0, r, d) is the attention at the array index under
    it: the query tile is rows `1024·tile …` of batch `b`, the key and value blocks are all of batch `b`. -/
theorem block_eq (hbody : BodyReads) (qa ka va : S4x2048x1024.Idx → EReal) (t : Fin cfg1.N) (r d : Fin 1024)
    (x0 : Vec Ideal S1x1024x1024 .bf16) (x1 x2 : Vec Ideal S1x2048x1024 .bf16)
    (h0 : ∀ y : S1x1024x1024.Idx, x0 y = qa (((cfg1.win 0).blk t).view.emb y))
    (h1 : ∀ y : S1x2048x1024.Idx, x1 y = ka (((cfg1.win 1).blk t).view.emb y))
    (h2 : ∀ y : S1x2048x1024.Idx, x2 y = va (((cfg1.win 2).blk t).view.emb y)) :
    k1_pay1 (F := Ideal) x0 x1 x2 (ix3 (0 : Fin 1) r d) = G1 qa ka va (((cfg1.win 3).blk t).view.emb (ix3 (0 : Fin 1) r d)) := by
  obtain ⟨e0, e1, e2, e3, e4, e5, e6, e7, e8, e9, e10, e11⟩ := idx_facts1 t
  refine (hbody _ _ _ r d).trans ?_
  unfold G1
  have gq : ∀ e : Fin 1024, ((cfg1.win 0).blk t).view.emb (ix3 (0 : Fin 1) r e) = ix3 ((((cfg1.win 3).blk t).view.emb (ix3 (0 : Fin 1) r d)) 0) ((((cfg1.win 3).blk t).view.emb (ix3 (0 : Fin 1) r d)) 1) e := by
    intro e; funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 1024 + 1 * r.val = win1_3.index t (1 : Fin 3) * 1024 + 1 * r.val; omega
    | ⟨2, _⟩ => show win1_0.index t (2 : Fin 3) * 1024 + 1 * e.val = e.val; omega
  have gk : ∀ (m' : Fin 2048) (e : Fin 1024), ((cfg1.win 1).blk t).view.emb (ix3 (0 : Fin 1) m' e) = ix3 ((((cfg1.win 3).blk t).view.emb (ix3 (0 : Fin 1) r d)) 0) m' e := by
    intro m' e; funext a; apply Fin.ext
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * m'.val = m'.val; omega
    | ⟨2, _⟩ => show win1_1.index t (2 : Fin 3) * 1024 + 1 * e.val = e.val; omega
  have gv : ∀ (m' : Fin 2048), ((cfg1.win 2).blk t).view.emb (ix3 (0 : Fin 1) m' d) = ix3 ((((cfg1.win 3).blk t).view.emb (ix3 (0 : Fin 1) r d)) 0) m' ((((cfg1.win 3).blk t).view.emb (ix3 (0 : Fin 1) r d)) 2) := by
    intro m'; funext a; apply Fin.ext
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * m'.val = m'.val; omega
    | ⟨2, _⟩ => show win1_2.index t (2 : Fin 3) * 1024 + 1 * d.val = win1_3.index t (2 : Fin 3) * 1024 + 1 * d.val; omega
  refine Finset.sum_congr rfl fun m _ => ?_
  have hs : (fun m' : Fin 2048 => (∑ e : Fin 1024, x0 (ix3 (0 : Fin 1) r e) * x1 (ix3 (0 : Fin 1) m' e)) * Cert.AttnSpec.scale)
      = (fun m' : Fin 2048 => (∑ e : Fin 1024, qa (ix3 ((((cfg1.win 3).blk t).view.emb (ix3 (0 : Fin 1) r d)) 0) ((((cfg1.win 3).blk t).view.emb (ix3 (0 : Fin 1) r d)) 1) e) * ka (ix3 ((((cfg1.win 3).blk t).view.emb (ix3 (0 : Fin 1) r d)) 0) m' e)) * Cert.AttnSpec.scale) := by
    funext m'
    refine congrArg (· * Cert.AttnSpec.scale) (Finset.sum_congr rfl fun e _ => ?_)
    rw [h0, h1, gq, gk]
    rfl
  rw [hs, h2, gv]
  rfl

/-- What point `t` writes back is block `t` of the attention of the arrays as the region finds them. -/
theorem flushed_eq (hbody : BodyReads) (c : Dev nD) (t : Fin cfg1.N) :
    (dat1 V c).flushed 3 t = ((cfg1.win 3).blk t).view.read (Elt Ideal) (G1 (V c main_v7) (V c main_v9) (V c main_v11)) := by
  show (cfg1.win 3).cut (grid1.coords t) ((dat1 V c).after 3 t) = _
  rw [after1_3]
  unfold out1_3
  rw [View.canon_unit_zero hz3]
  simp only [View.ld_unit_zero (S := S1x1024x1024) hz3, View.ld_unit_zero (S := S1x2048x1024) hz3]
  funext y
  obtain ⟨u, r, d, rfl⟩ : ∃ (u : Fin 1) (r : Fin 1024) (d : Fin 1024), y = ix3 u r d := ⟨y 0, y 1, y 2, eq_ix3 y⟩
  have hu : u = 0 := Subsingleton.elim _ _
  subst hu
  exact block_eq hbody (V c main_v7) (V c main_v9) (V c main_v11) t r d (iblk1 V c 0 t) (iblk1 V c 1 t) (iblk1 V c 2 t) (fun _ => rfl) (fun _ => rfl) (fun _ => rfl)

/-- An index is in point `t`'s output block iff each coordinate is in the block's range on its axis. -/
theorem mem_blk (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v12).slice (win1_3.rect t)).set ↔ _
  rw [View.set_slice_whole, Rect.mem_set_unit]
  exact Iff.rfl

/-- Every (batch, query tile) pair is some grid point's output block. -/
theorem idx_onto : ∀ (b : Fin 4) (q : Fin 2), ∃ t : Fin cfg1.N, win1_3.index t = ![b.val, q.val, 0] :=
  (by decide +kernel : ∀ (b : Fin 4) (q : Fin 2), ∃ t : Fin grid1.N, win1_3.index t = ![b.val, q.val, 0])

/-- Every index of the output array is in the block of the point at (its batch, its row / 1024). -/
theorem cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- The output blocks tile the array, so after the region it holds the attention everywhere. -/
theorem final (hbody : BodyReads) (c : Dev nD) : (dat1 V c).arrAt 3 cfg1.N = G1 (V c main_v7) (V c main_v9) (V c main_v11) :=
  (dat1 V c).arrAt_eq_of_cover 3 (G1 (V c main_v7) (V c main_v9) (V c main_v11)) (fun t _ => flushed_eq V hbody c t) cover

end Cert.KernelIdeal.Region1
end
-- ==== Proof.HostGlue.lean ====
/-
  The host operations around the two regions, read at an index.

  Before the first region the activations [4, 2048, 1024] are flattened to [8192, 1024] (row b·2048 + n) and the fused
  weight [3072, 1024] is split to [3, 1024, 1024] (row g·1024 + d becomes (g, d)); the changes of float format are the
  identity on the extended reals.  Between the regions the grouped projection [3, 8192, 1024] is split to
  [3, 4, 2048, 1024] and group g is sliced out and its unit axis dropped: entry (b, n, d) of the g-th operand of the
  second region is entry (g, b·2048 + n, d) of the first region's output.
-/
import proofs.«162608_j83743272337759_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostGlue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- Row `b·2048 + n` of the flattened activations. -/
def flatRow (b : Fin 4) (n : Fin 2048) : Fin 8192 := ⟨b.val * 2048 + n.val, by have := b.isLt; have := n.isLt; omega⟩

/-- Row `g·1024 + d` of the fused weight. -/
def fusedRow (g : Fin 3) (d : Fin 1024) : Fin 3072 := ⟨g.val * 1024 + d.val, by have := g.isLt; have := d.isLt; omega⟩

/-- The first region's activation operand is the flattened argument, in the narrower format. -/
theorem v1_term (c : Dev nD) :
    (V1 m ρ c main_v1 : S8192x1024.Idx → EReal) = (truncf .bf16 (shapeCast S8192x1024 (m ((c.tc : Thread nD τ).loc main_arg0) : FVec Ideal S4x2048x1024 .f32) shapeCasts_S4x2048x1024_S8192x1024) bitsLt_bf16_f32 : FVec Ideal S8192x1024 .bf16) := by
  show StableHlo.after hostOps0 (W0 m ρ c) (Proc.devRef .tc main_v1) = _
  after_results
  rfl

/-- The first region's weight operand is the argument in the narrower format, split into its three groups. -/
theorem v3_term (c : Dev nD) :
    (V1 m ρ c main_v3 : S3x1024x1024.Idx → EReal) = shapeCast S3x1024x1024 (truncf .bf16 (m ((c.tc : Thread nD τ).loc main_arg1) : FVec Ideal S3072x1024 .f32) bitsLt_bf16_f32 : FVec Ideal S3072x1024 .bf16) shapeCasts_S3072x1024_S3x1024x1024 := by
  show StableHlo.after hostOps0 (W0 m ρ c) (Proc.devRef .tc main_v3) = _
  after_results
  rfl

/-- Entry (b·2048 + n, k) of the flattened activations is entry (b, n, k) of the argument. -/
theorem v1_apply (c : Dev nD) (b : Fin 4) (n : Fin 2048) (k : Fin 1024) :
    (V1 m ρ c main_v1 : S8192x1024.Idx → EReal) (ix2 (flatRow b n) k)
      = (m ((c.tc : Thread nD τ).loc main_arg0) : S4x2048x1024.Idx → EReal) (ix3 b n k) := by
  rw [v1_term]
  show shapeCast S8192x1024 (m ((c.tc : Thread nD τ).loc main_arg0) : FVec Ideal S4x2048x1024 .f32) shapeCasts_S4x2048x1024_S8192x1024 (ix2 (flatRow b n) k) = _
  refine (shapeCast_apply (m ((c.tc : Thread nD τ).loc main_arg0) : FVec Ideal S4x2048x1024 .f32) shapeCasts_S4x2048x1024_S8192x1024 (ix2 (flatRow b n) k) (ix3 b n k) ?_).trans rfl
  show (S4x2048x1024.rowMajor (ix3 b n k)).val = (S8192x1024.rowMajor (ix2 (flatRow b n) k)).val
  rw [Shape.rowMajor_val_three, Shape.rowMajor_val_two]
  show (b.val * 2048 + n.val) * 1024 + k.val = (b.val * 2048 + n.val) * 1024 + k.val
  rfl

/-- Entry (g, d, k) of the split weight is entry (g·1024 + d, k) of the argument. -/
theorem v3_apply (c : Dev nD) (g : Fin 3) (d : Fin 1024) (k : Fin 1024) :
    (V1 m ρ c main_v3 : S3x1024x1024.Idx → EReal) (ix3 g d k)
      = (m ((c.tc : Thread nD τ).loc main_arg1) : S3072x1024.Idx → EReal) (ix2 (fusedRow g d) k) := by
  rw [v3_term]
  refine (shapeCast_apply (truncf .bf16 (m ((c.tc : Thread nD τ).loc main_arg1) : FVec Ideal S3072x1024 .f32) bitsLt_bf16_f32 : FVec Ideal S3072x1024 .bf16) shapeCasts_S3072x1024_S3x1024x1024 (ix3 g d k) (ix2 (fusedRow g d) k) ?_).trans rfl
  show (S3072x1024.rowMajor (ix2 (fusedRow g d) k)).val = (S3x1024x1024.rowMajor (ix3 g d k)).val
  rw [Shape.rowMajor_val_three, Shape.rowMajor_val_two]
  show (g.val * 1024 + d.val) * 1024 + k.val = (g.val * 1024 + d.val) * 1024 + k.val
  rfl

/-- Splitting the row axis of a [3, 8192, 1024] array into [4, 2048], slicing group `g` out and dropping its unit axis:
    entry (b, n, d) is entry (g, b·2048 + n, d). -/
theorem group_read (y : S3x8192x1024.Idx → EReal) (g : Fin 3) (off : Fin 4 → Nat) (hoff : off = ![g.val, 0, 0, 0])
    (hs : S3x4x2048x1024.Slices off S1x4x2048x1024) (b : Fin 4) (n : Fin 2048) (d : Fin 1024) :
    shapeCast S4x2048x1024 (extractStridedSlice S1x4x2048x1024 off (shapeCast S3x4x2048x1024 y shapeCasts_S3x8192x1024_S3x4x2048x1024) hs) shapeCasts_S1x4x2048x1024_S4x2048x1024 (ix3 b n d)
      = y (ix3 g (flatRow b n) d) := by
  subst hoff
  refine (shapeCast_apply _ shapeCasts_S1x4x2048x1024_S4x2048x1024 (ix3 b n d) (ix4 (0 : Fin 1) b n d) ?_).trans ?_
  · rw [Shape.rowMajor_val_four, Shape.rowMajor_val_three]
    show ((0 * 4 + b.val) * 2048 + n.val) * 1024 + d.val = (b.val * 2048 + n.val) * 1024 + d.val
    omega
  refine (extractStridedSlice_apply _ _ hs (ix4 (0 : Fin 1) b n d) (ix4 g b n d) ?_).trans ?_
  · intro a
    match a with
    | ⟨0, _⟩ => show g.val = g.val + 0; omega
    | ⟨1, _⟩ => show b.val = 0 + b.val; omega
    | ⟨2, _⟩ => show n.val = 0 + n.val; omega
    | ⟨3, _⟩ => show d.val = 0 + d.val; omega
  refine shapeCast_apply y shapeCasts_S3x8192x1024_S3x4x2048x1024 (ix4 g b n d) (ix3 g (flatRow b n) d) ?_
  rw [Shape.rowMajor_val_three, Shape.rowMajor_val_four]
  show (g.val * 8192 + (b.val * 2048 + n.val)) * 1024 + d.val = ((g.val * 4 + b.val) * 2048 + n.val) * 1024 + d.val
  omega

variable (W : Valuation τ sig (Elt Ideal))

/-- After the host operations between the regions, from any contents `W`: the second region's three operands are the
    three groups of `W`'s first-region output. -/
theorem q_term : (StableHlo.after hostOps1 W (Proc.devRef .tc main_v7) : S4x2048x1024.Idx → EReal)
      = shapeCast S4x2048x1024 (extractStridedSlice S1x4x2048x1024 ![0, 0, 0, 0] (shapeCast S3x4x2048x1024 (W (Proc.devRef .tc main_v4) : S3x8192x1024.Idx → EReal) shapeCasts_S3x8192x1024_S3x4x2048x1024) slices_S3x4x2048x1024_S1x4x2048x1024_0_0_0_0) shapeCasts_S1x4x2048x1024_S4x2048x1024 := by
  after_results
  rfl
theorem k_term : (StableHlo.after hostOps1 W (Proc.devRef .tc main_v9) : S4x2048x1024.Idx → EReal)
      = shapeCast S4x2048x1024 (extractStridedSlice S1x4x2048x1024 ![1, 0, 0, 0] (shapeCast S3x4x2048x1024 (W (Proc.devRef .tc main_v4) : S3x8192x1024.Idx → EReal) shapeCasts_S3x8192x1024_S3x4x2048x1024) slices_S3x4x2048x1024_S1x4x2048x1024_1_0_0_0) shapeCasts_S1x4x2048x1024_S4x2048x1024 := by
  after_results
  rfl
theorem v_term : (StableHlo.after hostOps1 W (Proc.devRef .tc main_v11) : S4x2048x1024.Idx → EReal)
      = shapeCast S4x2048x1024 (extractStridedSlice S1x4x2048x1024 ![2, 0, 0, 0] (shapeCast S3x4x2048x1024 (W (Proc.devRef .tc main_v4) : S3x8192x1024.Idx → EReal) shapeCasts_S3x8192x1024_S3x4x2048x1024) slices_S3x4x2048x1024_S1x4x2048x1024_2_0_0_0) shapeCasts_S1x4x2048x1024_S4x2048x1024 := by
  after_results
  rfl

theorem q_apply (b : Fin 4) (n : Fin 2048) (d : Fin 1024) :
    (StableHlo.after hostOps1 W (Proc.devRef .tc main_v7) : S4x2048x1024.Idx → EReal) (ix3 b n d)
      = (W (Proc.devRef .tc main_v4) : S3x8192x1024.Idx → EReal) (ix3 (0 : Fin 3) (flatRow b n) d) := by
  rw [q_term]; exact group_read _ 0 _ rfl _ b n d
theorem k_apply (b : Fin 4) (n : Fin 2048) (d : Fin 1024) :
    (StableHlo.after hostOps1 W (Proc.devRef .tc main_v9) : S4x2048x1024.Idx → EReal) (ix3 b n d)
      = (W (Proc.devRef .tc main_v4) : S3x8192x1024.Idx → EReal) (ix3 (1 : Fin 3) (flatRow b n) d) := by
  rw [k_term]; exact group_read _ 1 _ rfl _ b n d
theorem v_apply (b : Fin 4) (n : Fin 2048) (d : Fin 1024) :
    (StableHlo.after hostOps1 W (Proc.devRef .tc main_v11) : S4x2048x1024.Idx → EReal) (ix3 b n d)
      = (W (Proc.devRef .tc main_v4) : S3x8192x1024.Idx → EReal) (ix3 (2 : Fin 3) (flatRow b n) d) := by
  rw [v_term]; exact group_read _ 2 _ rfl _ b n d

end Cert.KernelIdeal.HostGlue

end
-- ==== Proof.KernelValue.lean ====
/-
  The idealized kernel's result as one function of its two arguments.

  The first region leaves the grouped projection of the flattened activations by the split weight; reading the
  flattening and the split back, entry (g, b·2048 + n, d) of it is the projection P_g[b, n, d] of the arguments.  The
  host operations between the regions hand group 0, 1, 2 to the second region as queries, keys and values, and the
  second region leaves their attention, with the scale applied to the finished scores.
-/
import proofs.«162608_j83743272337759_2_alg».proof.Proof.KernelRun
import proofs.«162608_j83743272337759_2_alg».proof.Proof.Region0
import proofs.«162608_j83743272337759_2_alg».proof.Proof.Region1
import proofs.«162608_j83743272337759_2_alg».proof.Proof.HostGlue
import proofs.«162608_j83743272337759_2_alg».proof.Proof.Spec

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.AttnSpec Cert.KernelIdeal.HostGlue

/-- Attention of three arrays that are, entry by entry, the three projections of `x` and `W` is the specification's
    result with the scale after the sum. -/
theorem attention_of_projections (Q K Vv : S4x2048x1024.Idx → EReal) (x : Act) (W : Wgt)
    (hQ : ∀ (b : Fin 4) (n : Fin 2048) (e : Fin 1024), Q (ix3 b n e) = proj x W 0 b n e)
    (hK : ∀ (b : Fin 4) (n : Fin 2048) (e : Fin 1024), K (ix3 b n e) = proj x W 1 b n e)
    (hV : ∀ (b : Fin 4) (n : Fin 2048) (e : Fin 1024), Vv (ix3 b n e) = proj x W 2 b n e) :
    Region1.G1 Q K Vv = resultAfter x W := by
  funext i
  obtain ⟨b, n, d, rfl⟩ : ∃ (b : Fin 4) (n : Fin 2048) (d : Fin 1024), i = ix3 b n d := ⟨i 0, i 1, i 2, eq_ix3 i⟩
  show (∑ m' : Fin 2048, weight (fun m'' => (∑ e : Fin 1024, Q (ix3 b n e) * K (ix3 b m'' e)) * scale) m' * Vv (ix3 b m' d))
    = attendAt (scoreAfter x W) (proj x W 2) b n d
  unfold attendAt scoreAfter
  simp only [hQ, hK, hV]

/-- The grouped projection of the flattened activations `a` by the split weight `w`, read through the flattening and the
    split, is the projection of the arguments. -/
theorem grouped_projection (a : S8192x1024.Idx → EReal) (w : S3x1024x1024.Idx → EReal) (x : Act) (W : Wgt)
    (ha : ∀ (b : Fin 4) (n : Fin 2048) (k : Fin 1024), a (ix2 (flatRow b n) k) = x (ix3 b n k))
    (hw : ∀ (g : Fin 3) (d k : Fin 1024), w (ix3 g d k) = W (ix2 (fusedRow g d) k))
    (g : Fin 3) (b : Fin 4) (n : Fin 2048) (d : Fin 1024) :
    Region0.G0 a w (ix3 g (flatRow b n) d) = proj x W g b n d := by
  show (∑ k : Fin 1024, a (ix2 (flatRow b n) k) * w (ix3 g d k)) = ∑ k : Fin 1024, x (ix3 b n k) * W (ix2 (wrow g d) k)
  refine Finset.sum_congr rfl fun k _ => ?_
  rw [ha, hw]
  rfl

variable (m : (ℓ : Loc nD τ sig) → Buf (Elt Ideal) ℓ) (ρ : Dev nD → PrngReg)

/-- After the first region its output array holds the grouped projection of its two operands. -/
theorem first_region (hb0 : Region0.BodyReads) (c : Dev nD) :
    (W2 m ρ c (Proc.devRef .tc main_v4) : S3x8192x1024.Idx → EReal) = Region0.G0 (V1 m ρ c main_v1) (V1 m ρ c main_v3) :=
  (W2_arr m ρ c 2).trans (Region0.final (V1 m ρ) hb0 c)

/-- The second region's operand of group `g` is the projection `P_g` of the arguments. -/
theorem operand_eq (hb0 : Region0.BodyReads) (c : Dev nD) (g : Fin 3) (b : Fin 4) (n : Fin 2048) (d : Fin 1024) :
    (W2 m ρ c (Proc.devRef .tc main_v4) : S3x8192x1024.Idx → EReal) (ix3 g (flatRow b n) d)
      = proj (m ((c.tc : Thread nD τ).loc main_arg0)) (m ((c.tc : Thread nD τ).loc main_arg1)) g b n d := by
  rw [first_region m ρ hb0 c]
  exact grouped_projection _ _ _ _ (v1_apply m ρ c) (v3_apply m ρ c) g b n d

/-- The second region's output array after the run is the specification's result of the arguments. -/
theorem result_eq (hb0 : Region0.BodyReads) (hb1 : Region1.BodyReads) (c : Dev nD) :
    (dat1 (V3 m ρ) c).arrAt 3 cfg1.N
      = resultAfter (m ((c.tc : Thread nD τ).loc main_arg0)) (m ((c.tc : Thread nD τ).loc main_arg1)) := by
  rw [Region1.final (V3 m ρ) hb1 c]
  exact attention_of_projections _ _ _ _ _
    (fun b n e => (q_apply (W2 m ρ c) b n e).trans (operand_eq m ρ hb0 c 0 b n e))
    (fun b n e => (k_apply (W2 m ρ c) b n e).trans (operand_eq m ρ hb0 c 1 b n e))
    (fun b n e => (v_apply (W2 m ρ c) b n e).trans (operand_eq m ρ hb0 c 2 b n e))

/-- Every weakly fair execution of the idealized kernel terminates, nothing faulting, with its result buffer at the
    specification's result of the arguments and the arguments as launched. -/
theorem run (hb0 : Region0.BodyReads) (hb1 : Region1.BodyReads) :
    θ_run defs (onTc (τ := τ) (main (F := Ideal))) ⟨m, fun _ => 0, ρ⟩ (fun r => ∀ c : Dev nD,
      r.2.mem ((c.tc : Thread nD τ).loc main_v12)
        = resultAfter (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ hb0 hb1 c), (h c).2⟩)
    (RunValue.run_named m ρ)

end Cert.KernelIdeal.KernelValue

end
-- ==== Proof.RefValue.lean ====
/-
  The reference program computes single-head attention over a fused projection with the scale applied to the
  query before the score sum.  Read one operation at a time, each stage of the reference is a stage of the
  specification: the reshape / transpose / slice / reshape chain after the first contraction only re-lays its
  result, so group g of it at (b, n, d) is the projection P_g[b, n, d]; the second contraction is the score
  with the scaled query; the row maximum is the fold of max from −∞ over the row; the softmax weight and the
  last contraction follow.
-/
import proofs.«162608_j83743272337759_2_alg».proof.Proof.Gen.ReferenceIdeal.Read
import proofs.«162608_j83743272337759_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.AttnSpec
open Idealize.ShloMosaic Idealize.ShloMosaic.ValueIdx
open scoped BigOperators

/-- The two argument arrays at the ideal values. -/
abbrev X0 := (⟨S4x2048x1024, .f32⟩ : BufTy).Contents (Elt Ideal)
abbrev X1 := (⟨S3072x1024, .f32⟩ : BufTy).Contents (Elt Ideal)

/-! ## The three projections -/

/-- Flattening (b, n, g, d) row-major and splitting it as (b, n, e) gives e = g·1024 + d: the first contraction
    read at the index the reshape and the transpose send (g, b, n, d) to is the projection of group g. -/
theorem fused_stage (x0 : X0) (x1 : X1) (g : Fin 3) (b : Fin 4) (n : Fin 2048) (d : Fin 1024) :
    val_main_v2 (F := Ideal) x0 x1 (ix4 g b n d) = proj x0 x1 g b n d := by
  rw [val_main_v2_apply, val_main_v1_apply, val_main_v0_apply]
  unfold proj
  refine Finset.sum_congr rfl fun k _ => ?_
  have hb := b.isLt; have hn := n.isLt; have hg := g.isLt; have hd := d.isLt
  have el : lidx_main_v0 (idx_main_v1 (idx_main_v2 (ix4 g b n d))) k = ix3 b n k := funext fun a => Fin.ext (by
    match a with
    | ⟨0, _⟩ => show (((b.val * 2048 + n.val) * 3 + g.val) * 1024 + d.val) / 6291456 = b.val; omega
    | ⟨1, _⟩ => show (((b.val * 2048 + n.val) * 3 + g.val) * 1024 + d.val) / 3072 % 2048 = n.val; omega
    | ⟨2, _⟩ => rfl)
  have er : ridx_main_v0 (idx_main_v1 (idx_main_v2 (ix4 g b n d))) k = ix2 (wrow g d) k := funext fun a => Fin.ext (by
    match a with
    | ⟨0, _⟩ => show (((b.val * 2048 + n.val) * 3 + g.val) * 1024 + d.val) % 3072 = g.val * 1024 + d.val; omega
    | ⟨1, _⟩ => rfl)
  rw [el, er]

/-- Dropping the unit axis of a slice of the group axis: (b, n, d) of the result is (g, b, n, d) of the source. -/
theorem slice0_idx (b : Fin 4) (n : Fin 2048) (d : Fin 1024) :
    idx_main_v3 (idx_main_v4 (ix3 b n d)) = ix4 (0 : Fin 3) b n d := by
  have hb := b.isLt; have hn := n.isLt; have hd := d.isLt
  exact funext fun a => Fin.ext (by
    match a with
    | ⟨0, _⟩ => rfl
    | ⟨1, _⟩ => show ((b.val * 2048 + n.val) * 1024 + d.val) / 2097152 % 4 = b.val; omega
    | ⟨2, _⟩ => show ((b.val * 2048 + n.val) * 1024 + d.val) / 1024 % 2048 = n.val; omega
    | ⟨3, _⟩ => show ((b.val * 2048 + n.val) * 1024 + d.val) % 1024 = d.val; omega)

theorem slice1_idx (b : Fin 4) (n : Fin 2048) (d : Fin 1024) :
    idx_main_v5 (idx_main_v6 (ix3 b n d)) = ix4 (1 : Fin 3) b n d := by
  have hb := b.isLt; have hn := n.isLt; have hd := d.isLt
  exact funext fun a => Fin.ext (by
    match a with
    | ⟨0, _⟩ => rfl
    | ⟨1, _⟩ => show ((b.val * 2048 + n.val) * 1024 + d.val) / 2097152 % 4 = b.val; omega
    | ⟨2, _⟩ => show ((b.val * 2048 + n.val) * 1024 + d.val) / 1024 % 2048 = n.val; omega
    | ⟨3, _⟩ => show ((b.val * 2048 + n.val) * 1024 + d.val) % 1024 = d.val; omega)

theorem slice2_idx (b : Fin 4) (n : Fin 2048) (d : Fin 1024) :
    idx_main_v7 (idx_main_v8 (ix3 b n d)) = ix4 (2 : Fin 3) b n d := by
  have hb := b.isLt; have hn := n.isLt; have hd := d.isLt
  exact funext fun a => Fin.ext (by
    match a with
    | ⟨0, _⟩ => rfl
    | ⟨1, _⟩ => show ((b.val * 2048 + n.val) * 1024 + d.val) / 2097152 % 4 = b.val; omega
    | ⟨2, _⟩ => show ((b.val * 2048 + n.val) * 1024 + d.val) / 1024 % 2048 = n.val; omega
    | ⟨3, _⟩ => show ((b.val * 2048 + n.val) * 1024 + d.val) % 1024 = d.val; omega)

/-- The query, key and value arrays are the projections of groups 0, 1 and 2. -/
theorem query_stage (x0 : X0) (x1 : X1) (b : Fin 4) (n : Fin 2048) (d : Fin 1024) :
    val_main_v4 (F := Ideal) x0 x1 (ix3 b n d) = proj x0 x1 0 b n d := by
  rw [val_main_v4_apply, val_main_v3_apply, slice0_idx, fused_stage]

theorem key_stage (x0 : X0) (x1 : X1) (b : Fin 4) (n : Fin 2048) (d : Fin 1024) :
    val_main_v6 (F := Ideal) x0 x1 (ix3 b n d) = proj x0 x1 1 b n d := by
  rw [val_main_v6_apply, val_main_v5_apply, slice1_idx, fused_stage]

theorem value_stage (x0 : X0) (x1 : X1) (b : Fin 4) (n : Fin 2048) (d : Fin 1024) :
    val_main_v8 (F := Ideal) x0 x1 (ix3 b n d) = proj x0 x1 2 b n d := by
  rw [val_main_v8_apply, val_main_v7_apply, slice2_idx, fused_stage]

/-! ## The score -/

/-- The broadcast constant is the scale everywhere. -/
theorem scale_stage (i : S4x2048x1024.Idx) : val_main_v9 (F := Ideal) i = scale := by
  rw [val_main_v9_apply, val_main_cst_apply]
  rfl

/-- The scaled query. -/
theorem scaled_stage (x0 : X0) (x1 : X1) (b : Fin 4) (n : Fin 2048) (d : Fin 1024) :
    val_main_v10 (F := Ideal) x0 x1 (ix3 b n d) = proj x0 x1 0 b n d * scale := by
  rw [val_main_v10_apply, query_stage, scale_stage]
  rfl

/-- The second contraction is the score with the scale applied to the query before the sum. -/
theorem score_stage (x0 : X0) (x1 : X1) (b : Fin 4) (n m : Fin 2048) :
    val_main_v11 (F := Ideal) x0 x1 (ix3 b n m) = scoreBefore x0 x1 b n m := by
  rw [val_main_v11_apply]
  unfold scoreBefore
  refine Finset.sum_congr rfl fun d _ => ?_
  have el : lidx_main_v11 (ix3 b n m) d = ix3 b n d := funext fun a => Fin.ext (by
    match a with | ⟨0, _⟩ => rfl | ⟨1, _⟩ => rfl | ⟨2, _⟩ => rfl)
  have er : ridx_main_v11 (ix3 b n m) d = ix3 b m d := funext fun a => Fin.ext (by
    match a with | ⟨0, _⟩ => rfl | ⟨1, _⟩ => rfl | ⟨2, _⟩ => rfl)
  rw [el, er, scaled_stage, key_stage]

/-! ## The row maximum -/

/-- Reducing the last axis of a [4, 2048, 2048] array leaves [4, 2048]. -/
theorem reduces_last : S4x2048x2048.Reduces [2] S4x2048 := by decide

/-- Row (b, n) with coordinate k inserted on the reduced axis is (b, n, k). -/
theorem lift_last (b : Fin 4) (n k : Fin 2048) : reduces_last.lift (ix2 b n) k = ix3 b n k :=
  funext fun a => Fin.ext (by
    match a with | ⟨0, _⟩ => rfl | ⟨1, _⟩ => rfl | ⟨2, _⟩ => rfl)

/-- The reduction with maximum over the last axis is the row maximum of the score, folded from −∞. -/
theorem rowmax_stage (x0 : X0) (x1 : X1) (b : Fin 4) (n : Fin 2048) :
    val_main_v12 (F := Ideal) x0 x1 (ix2 b n) = rowmax (scoreBefore x0 x1 b n) := by
  unfold val_main_v12
  generalize hy : val_main_v11 (F := Ideal) x0 x1 = y
  refine (Host.reduce_eq_fold_single (FloatOps.maximumf (F := Ideal) (φ := .f32)) y (val_main_cst_0 (F := Ideal))
    reducesTo_S4x2048x2048_S4x2048_d2 reduces_last h_S_ (ix2 b n)).trans ?_
  unfold rowmax
  show (Finset.univ : Finset (Fin 2048)).fold max ninf (fun k => y (reduces_last.lift (ix2 b n) k)) = _
  refine Finset.fold_congr fun (k : Fin 2048) _ => ?_
  refine (congrArg y (lift_last b n k)).trans ?_
  rw [← hy]
  exact score_stage x0 x1 b n k

/-- One more maximum with a broadcast −∞ changes nothing. -/
theorem max_stage (x0 : X0) (x1 : X1) (b : Fin 4) (n : Fin 2048) :
    val_main_v14 (F := Ideal) x0 x1 (ix2 b n) = rowmax (scoreBefore x0 x1 b n) := by
  rw [val_main_v14_apply, val_main_v13_apply, val_main_cst_1_apply, rowmax_stage]
  exact max_ninf_rowmax _

/-! ## The softmax weight -/

/-- The row maximum broadcast back along the row. -/
theorem maxrow_stage (x0 : X0) (x1 : X1) (b : Fin 4) (n m : Fin 2048) :
    val_main_v16 (F := Ideal) x0 x1 (ix3 b n m) = rowmax (scoreBefore x0 x1 b n) := by
  rw [val_main_v16_apply, val_main_v15_apply]
  have e : idx_main_v15 (idx_main_v16 (ix3 b n m)) = ix2 b n := funext fun a => Fin.ext (by
    match a with | ⟨0, _⟩ => rfl | ⟨1, _⟩ => rfl)
  rw [e, max_stage]

/-- The exponential of the score minus its row maximum. -/
theorem exp_stage (x0 : X0) (x1 : X1) (b : Fin 4) (n m : Fin 2048) :
    val_main_v18 (F := Ideal) x0 x1 (ix3 b n m)
      = Ideal.exp (scoreBefore x0 x1 b n m - rowmax (scoreBefore x0 x1 b n)) := by
  rw [val_main_v18_apply, val_main_v17_apply, score_stage, maxrow_stage]
  rfl

/-- The sum of a row's exponentials, from the zero pattern. -/
theorem denom_stage (x0 : X0) (x1 : X1) (b : Fin 4) (n : Fin 2048) :
    val_main_v19 (F := Ideal) x0 x1 (ix2 b n)
      = ∑ m' : Fin 2048, Ideal.exp (scoreBefore x0 x1 b n m' - rowmax (scoreBefore x0 x1 b n)) := by
  rw [val_main_v19_apply, val_main_cst_2_apply, Ideal.ofBits_def, Ideal.ofBits_zero_f32, zero_add]
  refine Finset.sum_congr rfl fun k _ => ?_
  have e : idx_main_v19 (ix2 b n) k = ix3 b n k := funext fun a => Fin.ext (by
    match a with | ⟨0, _⟩ => rfl | ⟨1, _⟩ => rfl | ⟨2, _⟩ => rfl)
  rw [e, exp_stage]

/-- The quotient is the softmax weight of the score row. -/
theorem weight_stage (x0 : X0) (x1 : X1) (b : Fin 4) (n m : Fin 2048) :
    val_main_v22 (F := Ideal) x0 x1 (ix3 b n m) = weight (scoreBefore x0 x1 b n) m := by
  rw [val_main_v22_apply, val_main_v21_apply, val_main_v20_apply]
  have e : idx_main_v20 (idx_main_v21 (ix3 b n m)) = ix2 b n := funext fun a => Fin.ext (by
    match a with | ⟨0, _⟩ => rfl | ⟨1, _⟩ => rfl)
  rw [e, exp_stage, denom_stage]
  rfl

/-! ## The result -/

/-- The last contraction sums the weights against the values. -/
theorem out_stage (x0 : X0) (x1 : X1) (b : Fin 4) (n : Fin 2048) (d : Fin 1024) :
    val_main_v23 (F := Ideal) x0 x1 (ix3 b n d) = attendAt (scoreBefore x0 x1) (proj x0 x1 2) b n d := by
  rw [val_main_v23_apply]
  unfold attendAt
  refine Finset.sum_congr rfl fun m _ => ?_
  have el : lidx_main_v23 (ix3 b n d) m = ix3 b n m := funext fun a => Fin.ext (by
    match a with | ⟨0, _⟩ => rfl | ⟨1, _⟩ => rfl | ⟨2, _⟩ => rfl)
  have er : ridx_main_v23 (ix3 b n d) m = ix3 b m d := funext fun a => Fin.ext (by
    match a with | ⟨0, _⟩ => rfl | ⟨1, _⟩ => rfl | ⟨2, _⟩ => rfl)
  rw [el, er, weight_stage, value_stage]

/-- The reference program is the specification with the scale applied before the score sum. -/
theorem ref_eq (x0 : (⟨S4x2048x1024, .f32⟩ : BufTy).Contents (Elt Ideal))
    (x1 : (⟨S3072x1024, .f32⟩ : BufTy).Contents (Elt Ideal)) :
    Cert.ReferenceIdeal.Read.val_main_v23 (F := Ideal) x0 x1 = Cert.AttnSpec.resultBefore x0 x1 := by
  funext i
  obtain ⟨b, n, d, rfl⟩ : ∃ (b : Fin 4) (n : Fin 2048) (d : Fin 1024), i = ix3 b n d := ⟨i 0, i 1, i 2, eq_ix3 i⟩
  exact out_stage x0 x1 b n d

end Cert.ReferenceIdeal.RefValue

end
-- ==== Proof.lean ====
/-
  The certificate of a fused-projection attention kernel against its plain reference.

  Both programs take activations x[4, 2048, 1024] and a fused weight W[3072, 1024].  The kernel runs two pipelined
  regions: the first leaves the three projections P_g = x·W_gᵀ (g the query, key, value group of W's rows), the second,
  batch by batch and query tile by query tile, the attention ∑ m, softmax_m((P_0·P_1ᵀ)·c)·P_2 with c = 1/32.  The
  reference forms the same projections by one contraction and a re-layout, scales the QUERY by c before the score
  contraction, and takes the same softmax and the same weighted sum.  On the extended reals every change of float format
  is the identity and every sum is exact, so the kernel computes `resultAfter` and the reference `resultBefore` of the
  specification; the two agree because multiplication by the nonnegative real c distributes over the score sum.  The
  precondition (finite inputs) is not needed for that law and is never opened.
-/
import proofs.«162608_j83743272337759_2_alg».proof.Defs
import proofs.«162608_j83743272337759_2_alg».proof.Proof.Gen.Kernel
import proofs.«162608_j83743272337759_2_alg».proof.Proof.Gen.Kernel.Skeleton
import proofs.«162608_j83743272337759_2_alg».proof.Proof.Gen.Kernel.Launch
import proofs.«162608_j83743272337759_2_alg».proof.Proof.Gen.Kernel.Points
import proofs.«162608_j83743272337759_2_alg».proof.Proof.Gen.Kernel.Frame
import proofs.«162608_j83743272337759_2_alg».proof.Proof.Gen.KernelIdeal
import proofs.«162608_j83743272337759_2_alg».proof.Proof.Gen.KernelIdeal.Skeleton
import proofs.«162608_j83743272337759_2_alg».proof.Proof.Gen.KernelIdeal.Launch
import proofs.«162608_j83743272337759_2_alg».proof.Proof.Gen.KernelIdeal.Points
import proofs.«162608_j83743272337759_2_alg».proof.Proof.Gen.KernelIdeal.Frame
import proofs.«162608_j83743272337759_2_alg».proof.Proof.Gen.ReferenceIdeal
import proofs.«162608_j83743272337759_2_alg».proof.Proof.Gen.ReferenceIdeal.Run
import proofs.«162608_j83743272337759_2_alg».proof.Proof.Gen.ReferenceIdeal.Read
import proofs.«162608_j83743272337759_2_alg».proof.Proof.Gen.Pre_finite_inputs
import proofs.«162608_j83743272337759_2_alg».proof.Proof.Spec
import proofs.«162608_j83743272337759_2_alg».proof.Proof.BodyValue
import proofs.«162608_j83743272337759_2_alg».proof.Proof.KernelValue
import proofs.«162608_j83743272337759_2_alg».proof.Proof.RefValue
import Idealize.ShloMosaic.Adequacy
import Idealize.ShloMosaic.Init

noncomputable section

namespace Cert.Proof

open Idealize.ShloMosaic Idealize.SL.Sem

/-- The word-level kernel runs and keeps its arguments: the generated frame of its two regions. -/
theorem frame_kernel : Cert.frame_Kernel := fun m ρ _ => Cert.Kernel.Gen.frame m ρ

/-- The idealized kernel likewise. -/
theorem frame_kernel_ideal : Cert.frame_KernelIdeal := fun m ρ _ => Cert.KernelIdeal.Gen.frame m ρ

/-- The reference is a straight line of host operations: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the idealized kernel ends with the attention whose scale follows the score
    sum and the reference with the attention whose scale precedes it: one array. -/
theorem algebraic : Cert.algebraic_KernelIdeal_ReferenceIdeal := by
  intro m ρ m' ρ' _ hagree
  refine ⟨fun c => Cert.AttnSpec.resultAfter (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ Cert.KernelIdeal.BodyValue.proj_body Cert.KernelIdeal.BodyValue.attn_body, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq,
    Cert.AttnSpec.resultBefore_eq_resultAfter, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
